-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S512x512 : Shape := ⟨2, ![512, 512]⟩
abbrev S512 : Shape := ⟨1, ![512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S64x512x512 .f32) (main_arg1 : FVec F S512x512 .f32) (main_arg2 : FVec F S512x512 .f32) (main_arg3 : FVec F S512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S64x512x512 : Shape := ⟨3, ![64, 512, 512]⟩
abbrev S512x512 : Shape := ⟨2, ![512, 512]⟩
abbrev S512 : Shape := ⟨1, ![512]⟩
abbrev S64x1024 : Shape := ⟨2, ![64, 1024]⟩
abbrev S8x512x512 : Shape := ⟨3, ![8, 512, 512]⟩
abbrev S8x1024 : Shape := ⟨2, ![8, 1024]⟩
abbrev S4096x512 : Shape := ⟨2, ![4096, 512]⟩
abbrev S1x1x512 : Shape := ⟨3, ![1, 1, 512]⟩
abbrev S1x512x512 : Shape := ⟨3, ![1, 512, 512]⟩
abbrev S8x512 : Shape := ⟨2, ![8, 512]⟩

abbrev nBuf : Space → Nat
  | .hbm => 5
  | .vmem => 7
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S64x1024, .f32⟩
  | .local _ .vmem, ⟨0, _⟩ => ⟨S8x512x512, .f32⟩
  | .local _ .vmem, ⟨1, _⟩ => ⟨S8x512x512, .f32⟩
  | .local _ .vmem, ⟨2, _⟩ => ⟨S512x512, .f32⟩
  | .local _ .vmem, ⟨3, _⟩ => ⟨S512x512, .f32⟩
  | .local _ .vmem, ⟨4, _⟩ => ⟨S512, .f32⟩
  | .local _ .vmem, ⟨5, _⟩ => ⟨S8x1024, .f32⟩
  | .local _ .vmem, ⟨6, _⟩ => ⟨S8x1024, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x512x512_S8x512x512_0_0_0 : ∀ a, (![0, 0, 0] : Fin 3 → Nat) a + S8x512x512.size a ≤ S8x512x512.size a
  h_S8x512x512 : 0 < S8x512x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S8x512x512_S4096x512 : S8x512x512.ShapeCasts S4096x512
  shapeCasts_S4096x512_S8x512x512 : S4096x512.ShapeCasts S8x512x512
  inb_S512_S512_0 : ∀ a, (![0] : Fin 1 → Nat) a + S512.size a ≤ S512.size a
  h_S512 : 0 < S512.numel
  shapeCasts_S512_S1x1x512 : S512.ShapeCasts S1x1x512
  broadcasts_S1x1x512_S8x512x512 : S1x1x512.Broadcasts S8x512x512
  iota_S512x512_d0_w32 : S512x512.Iotas .tc 32 [0]
  iota_S512x512_d1_w32 : S512x512.Iotas .tc 32 [1]
  natLt_1_32 : 1 < 32
  shapeCasts_S512x512_S1x512x512 : S512x512.ShapeCasts S1x512x512
  broadcasts_S1x512x512_S8x512x512 : S1x512x512.Broadcasts S8x512x512
  reduces_S8x512x512_S8x512 : S8x512x512.Reduces [1] S8x512
  concatenates_S8x512_S8x512_S8x1024_d1 : Shape.Concatenates [S8x512, S8x512] S8x1024 1
  inb_S8x1024_S8x1024_0_0 : ∀ a, (![0, 0] : Fin 2 → Nat) a + S8x1024.size a ≤ S8x1024.size a
  h_S8x1024 : 0 < S8x1024.numel
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x512x512.size a
  hwx0_0 : ∀ i : grid0.Coords, EltTy.bits .f32 = 32 ∨ (Rect.block (s := S64x512x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S64x1024.size a
  hwx0_4 : ∀ i : grid0.Coords, EltTy.bits .f32 = 32 ∨ (Rect.block (s := S64x1024) S8x1024.size (cc0_transform_4 i) (hinb0_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S512x512 : Shape := ⟨2, ![512, 512]⟩
abbrev S512 : Shape := ⟨1, ![512]⟩
abbrev S1x1x512 : Shape := ⟨3, ![1, 1, 512]⟩
abbrev S512x1 : Shape := ⟨2, ![512, 1]⟩
abbrev S1x512 : Shape := ⟨2, ![1, 512]⟩
abbrev S1x512x512 : Shape := ⟨3, ![1, 512, 512]⟩
abbrev S_ : Shape := ⟨0, ![]⟩
abbrev S64x512 : Shape := ⟨2, ![64, 512]⟩
abbrev S64x1x512 : Shape := ⟨3, ![64, 1, 512]⟩
abbrev S64x1024 : Shape := ⟨2, ![64, 1024]⟩

abbrev nBuf : Space → Nat
  | .hbm => 46
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S64x512x512, .f32⟩
  | .hbm, ⟨5, _⟩ => ⟨S1x1x512, .f32⟩
  | .hbm, ⟨6, _⟩ => ⟨S64x512x512, .f32⟩
  | .hbm, ⟨7, _⟩ => ⟨S64x512x512, .f32⟩
  | .hbm, ⟨8, _⟩ => ⟨S64x512x512, .f32⟩
  | .hbm, ⟨9, _⟩ => ⟨S64x512x512, .f32⟩
  | .hbm, ⟨10, _⟩ => ⟨S64x512x512, .f32⟩
  | .hbm, ⟨11, _⟩ => ⟨S512, .i32⟩
  | .hbm, ⟨12, _⟩ => ⟨S512x1, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .f32⟩
  | .hbm, ⟨18, _⟩ => ⟨S512x512, .f32⟩
  | .hbm, ⟨19, _⟩ => ⟨S1x512x512, .f32⟩
  | .hbm, ⟨20, _⟩ => ⟨S64x512x512, .f32⟩
  | .hbm, ⟨21, _⟩ => ⟨S64x512x512, .f32⟩
  | .hbm, ⟨22, _⟩ => ⟨S_, .f32⟩
  | .hbm, ⟨23, _⟩ => ⟨S64x512, .f32⟩
  | .hbm, ⟨24, _⟩ => ⟨S64x1x512, .f32⟩
  | .hbm, ⟨25, _⟩ => ⟨S_, .f32⟩
  | .hbm, ⟨26, _⟩ => ⟨S64x1x512, .f32⟩
  | .hbm, ⟨27, _⟩ => ⟨S64x1x512, .f32⟩
  | .hbm, ⟨28, _⟩ => ⟨S1x512x512, .f32⟩
  | .hbm, ⟨29, _⟩ => ⟨S64x512x512, .f32⟩
  | .hbm, ⟨30, _⟩ => ⟨S64x512x512, .f32⟩
  | .hbm, ⟨31, _⟩ => ⟨S_, .f32⟩
  | .hbm, ⟨32, _⟩ => ⟨S64x512, .f32⟩
  | .hbm, ⟨33, _⟩ => ⟨S64x1x512, .f32⟩
  | .hbm, ⟨34, _⟩ => ⟨S_, .f32⟩
  | .hbm, ⟨35, _⟩ => ⟨S64x1x512, .f32⟩
  | .hbm, ⟨36, _⟩ => ⟨S64x1x512, .f32⟩
  | .hbm, ⟨37, _⟩ => ⟨S64x512x512, .f32⟩
  | .hbm, ⟨38, _⟩ => ⟨S64x512x512, .f32⟩
  | .hbm, ⟨39, _⟩ => ⟨S_, .f32⟩
  | .hbm, ⟨40, _⟩ => ⟨S64x512, .f32⟩
  | .hbm, ⟨41, _⟩ => ⟨S64x512x512, .f32⟩
  | .hbm, ⟨42, _⟩ => ⟨S64x512x512, .f32⟩
  | .hbm, ⟨43, _⟩ => ⟨S_, .f32⟩
  | .hbm, ⟨44, _⟩ => ⟨S64x512, .f32⟩
  | .hbm, ⟨45, _⟩ => ⟨S64x1024, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x512_S512x512_1_0 : S512x512.Transposes [1, 0] S512x512
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  reducesTo_S64x512x512_S64x512_d1 : S64x512x512.ReducesTo [1] S64x512
  h_S_ : 0 < S_.numel
  bcast_S64x512_S64x1x512_0_2 : S64x512.BroadcastsInDim S64x1x512 (![0, 2] : Fin 2 → Fin S64x1x512.rank)
  bcast_S_S64x1x512 : S_.BroadcastsInDim S64x1x512 (![] : Fin 0 → Fin S64x1x512.rank)
  bcast_S64x1x512_S64x512x512_0_1_2 : S64x1x512.BroadcastsInDim S64x512x512 (![0, 1, 2] : Fin 3 → Fin S64x512x512.rank)
  concatenates_S64x512_S64x512_S64x1024_d1 : Shape.Concatenates [S64x512, S64x512] S64x1024 1
  dot_S64x512x512_S512x512_S64x512x512_2_0_01_1_n_n_wf : DotDims.WF S64x512x512 S512x512 S64x512x512 [2] [0] [0, 1] [1] [] []

variable [Facts₀]

def dot_S64x512x512_S512x512_S64x512x512_2_0_01_1_n_n : DotDims S64x512x512 S512x512 S64x512x512 where
  lhsContracting := [2]
  rhsContracting := [0]
  lhsNonContracting := [0, 1]
  rhsNonContracting := [1]
  lhsBatch := []
  rhsBatch := []
  wf := dot_S64x512x512_S512x512_S64x512x512_2_0_01_1_n_n_wf

class Facts : Prop extends Facts₀ where

variable [Facts]
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.Spec.lean ====
/-
  What the layer computes, as one function of the four argument arrays, and the one law that joins the two programs.

  For a batch member β, a sequence position s and a feature e:

      hidden β s e = tanh (∑ₖ x[β,s,k] · W[k,e] + b[e])
      weight β s e = exp  (∑ₖ hidden β s k · U[k,e])

  Two 0/1 masks over (s, d) select the positions strictly above (s > d) and strictly below (s < d) the diagonal.
  For a mask μ the masked column weight is   ∑ₛ weight β s d · μ s d + ε   and the result has, at (β, d) for d < 512,

      (∑ₛ x[β,s,d]) · (masked column weight of the "above" mask at (β, d))

  and at (β, 512 + d) the same with the "below" mask. One program multiplies the column sum of x by the masked column
  weight; the other multiplies every x[β,s,d] by it and sums afterwards. On the extended reals a common factor leaves a
  finite sum only when nothing infinite is involved, so the law is stated for arrays of real entries: then every
  intermediate value is a real (products, finite sums, tanh and exp of reals are reals), and the identity is the
  distributive law of the real numbers.
-/
import Idealize.ShloMosaic.Lib.ValueIdx
import Idealize.ShloMosaic.PureOps.Ideal
import proofs.«124538_j12283606468238_1_alg».proof.Proof.LibRealSums

noncomputable section

open scoped BigOperators

namespace Cert.DirAttn

open Idealize.ShloMosaic Idealize.ShloMosaic.ValueIdx Cert.RealSums

/-- The input x, the two square matrices, the bias and the result, as families of extended reals. -/
abbrev Arr3 : Type := (⟨3, ![64, 512, 512]⟩ : Shape).Idx → EReal
abbrev Mat : Type := (⟨2, ![512, 512]⟩ : Shape).Idx → EReal
abbrev Bias : Type := (⟨1, ![512]⟩ : Shape).Idx → EReal
abbrev Res : Type := (⟨2, ![64, 1024]⟩ : Shape).Idx → EReal

/-- tanh (x·W + b) at (β, s, e). -/
def hidden (x : Arr3) (W : Mat) (b : Bias) (β : Fin 64) (s e : Fin 512) : EReal :=
  Ideal.tanh ((∑ k : Fin 512, x (ix3 β s k) * W (ix2 k e)) + b (ix1 e))

/-- exp (hidden·U) at (β, s, e). -/
def weight (x : Arr3) (W U : Mat) (b : Bias) (β : Fin 64) (s e : Fin 512) : EReal :=
  Ideal.exp (∑ k : Fin 512, hidden x W b β s k * U (ix2 k e))

/-- The mask of the positions strictly above the diagonal: the one-bit answer to "s > d" (signed, on 32-bit words), as a real. -/
def above (s d : Fin 512) : EReal :=
  (((IntOp.cmpi .sgt (BitVec.ofNat 32 s.val) (BitVec.ofNat 32 d.val)).toNat : ℝ) : EReal)

/-- The mask of the positions strictly below the diagonal: the one-bit answer to "s < d", as a real. -/
def below (s d : Fin 512) : EReal :=
  (((IntOp.cmpi .slt (BitVec.ofNat 32 s.val) (BitVec.ofNat 32 d.val)).toNat : ℝ) : EReal)

/-- The small constant added to every masked column weight: the f32 word both programs carry. -/
def eps : EReal := Ideal.ofBits .f32 0x33D6BF95#32

/-- ∑ₛ weight β s d · μ s d + ε. -/
def colWeight (x : Arr3) (W U : Mat) (b : Bias) (μ : Fin 512 → Fin 512 → EReal) (β : Fin 64) (d : Fin 512) : EReal :=
  (∑ s : Fin 512, weight x W U b β s d * μ s d) + eps

/-- ∑ₛ x[β,s,d]. -/
def colSum (x : Arr3) (β : Fin 64) (d : Fin 512) : EReal := ∑ s : Fin 512, x (ix3 β s d)

/-- One half of the result at (β, d): the column sum times the masked column weight. -/
def half (x : Arr3) (W U : Mat) (b : Bias) (μ : Fin 512 → Fin 512 → EReal) (β : Fin 64) (d : Fin 512) : EReal :=
  colSum x β d * colWeight x W U b μ β d

/-- The same half with the factor inside the sum. -/
def halfInside (x : Arr3) (W U : Mat) (b : Bias) (μ : Fin 512 → Fin 512 → EReal) (β : Fin 64) (d : Fin 512) : EReal :=
  ∑ s : Fin 512, x (ix3 β s d) * colWeight x W U b μ β d

/-- The whole result: columns 0 … 511 carry the "above" half, columns 512 … 1023 the "below" half. -/
def result (x : Arr3) (W U : Mat) (b : Bias) : Res := fun j =>
  if h : (j 1).val < 512 then half x W U b above (j 0) ⟨(j 1).val, h⟩
  else half x W U b below (j 0) ⟨(j 1).val - 512, by have := idx2_lt1 j; omega⟩

/-! ## Every intermediate value of real inputs is a real -/

theorem isReal_tanh {a : EReal} (ha : ∃ r : ℝ, a = (r : EReal)) : ∃ r : ℝ, Ideal.tanh a = (r : EReal) := by
  obtain ⟨r, rfl⟩ := ha; exact ⟨Real.tanh r, rfl⟩

theorem isReal_exp {a : EReal} (ha : ∃ r : ℝ, a = (r : EReal)) : ∃ r : ℝ, Ideal.exp a = (r : EReal) := by
  obtain ⟨r, rfl⟩ := ha; exact ⟨Real.exp r, rfl⟩

theorem isReal_above (s d : Fin 512) : ∃ r : ℝ, above s d = (r : EReal) := ⟨_, rfl⟩
theorem isReal_below (s d : Fin 512) : ∃ r : ℝ, below s d = (r : EReal) := ⟨_, rfl⟩

/-- The constant's word has a biased exponent strictly between 0 and 255: it denotes a real. -/
theorem isReal_eps : ∃ r : ℝ, eps = (r : EReal) := by
  unfold eps Ideal.ofBits Ideal.ieee
  simp only []
  rw [if_neg (by decide), if_neg (by decide)]
  exact ⟨_, rfl⟩

variable {x : Arr3} {W U : Mat} {b : Bias}

theorem isReal_hidden (hx : ∀ i, ∃ r : ℝ, x i = (r : EReal)) (hW : ∀ i, ∃ r : ℝ, W i = (r : EReal))
    (hb : ∀ i, ∃ r : ℝ, b i = (r : EReal)) (β : Fin 64) (s e : Fin 512) : ∃ r : ℝ, hidden x W b β s e = (r : EReal) :=
  isReal_tanh (isReal_add (isReal_sum _ fun k => isReal_mul (hx _) (hW _)) (hb _))

theorem isReal_weight (hx : ∀ i, ∃ r : ℝ, x i = (r : EReal)) (hW : ∀ i, ∃ r : ℝ, W i = (r : EReal))
    (hU : ∀ i, ∃ r : ℝ, U i = (r : EReal)) (hb : ∀ i, ∃ r : ℝ, b i = (r : EReal)) (β : Fin 64) (s e : Fin 512) :
    ∃ r : ℝ, weight x W U b β s e = (r : EReal) :=
  isReal_exp (isReal_sum _ fun k => isReal_mul (isReal_hidden hx hW hb β s k) (hU _))

theorem isReal_colWeight (hx : ∀ i, ∃ r : ℝ, x i = (r : EReal)) (hW : ∀ i, ∃ r : ℝ, W i = (r : EReal))
    (hU : ∀ i, ∃ r : ℝ, U i = (r : EReal)) (hb : ∀ i, ∃ r : ℝ, b i = (r : EReal))
    {μ : Fin 512 → Fin 512 → EReal} (hμ : ∀ s d, ∃ r : ℝ, μ s d = (r : EReal)) (β : Fin 64) (d : Fin 512) :
    ∃ r : ℝ, colWeight x W U b μ β d = (r : EReal) :=
  isReal_add (isReal_sum _ fun s => isReal_mul (isReal_weight hx hW hU hb β s d) (hμ s d)) isReal_eps

/-! ## The law -/

/-- A real factor leaves a finite sum of reals: ∑ᵢ fᵢ · c = (∑ᵢ fᵢ) · c. -/
theorem sum_mul_of_real {ι : Type*} [Fintype ι] (f : ι → EReal) (c : EReal) (hf : ∀ i, ∃ r : ℝ, f i = (r : EReal))
    (hc : ∃ r : ℝ, c = (r : EReal)) : ∑ i, f i * c = (∑ i, f i) * c := by
  choose g hg using hf
  obtain ⟨r, rfl⟩ := hc
  obtain rfl : f = fun i => (g i : EReal) := funext hg
  simp only [← EReal.coe_mul, coe_finset_sum, Finset.sum_mul]

/-- With real inputs, the factor inside the sum or outside it gives the same half. -/
theorem halfInside_eq_half (hx : ∀ i, ∃ r : ℝ, x i = (r : EReal)) (hW : ∀ i, ∃ r : ℝ, W i = (r : EReal))
    (hU : ∀ i, ∃ r : ℝ, U i = (r : EReal)) (hb : ∀ i, ∃ r : ℝ, b i = (r : EReal))
    {μ : Fin 512 → Fin 512 → EReal} (hμ : ∀ s d, ∃ r : ℝ, μ s d = (r : EReal)) (β : Fin 64) (d : Fin 512) :
    halfInside x W U b μ β d = half x W U b μ β d :=
  sum_mul_of_real _ _ (fun s => hx _) (isReal_colWeight hx hW hU hb hμ β d)

end Cert.DirAttn

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KernelStages.lean ====
/-
  The kernel's body on one block, stage by stage, and each stage read at an index.

  A block is 8 consecutive batch members of x, an [8, 512, 512] array; W, U and b are whole. The body flattens the block
  to 4096 rows of 512, multiplies by W (a plain 4096×512 by 512×512 product into a zero accumulator), restores the
  [8, 512, 512] shape, adds the bias along the last axis and takes tanh; the same product with U followed by exp gives the
  weights; the two masks are the comparisons of a row iota with a column iota on a 512 × 512 grid, as floats; for a mask
  the weights are multiplied by it (copied over the 8 members) and summed over the sequence axis, and the small constant
  is added; x itself is summed over the sequence axis; each column sum multiplies each masked column weight, and the two
  [8, 512] results are laid side by side. Changes of float format are the identity on extended reals.

  Row p·512 + s of the flattened block is member p, position s: the two shapes have the same row-major order.
-/
import proofs.«124538_j12283606468238_1_alg».proof.Proof.Gen.KernelIdeal.Skeleton
import proofs.«124538_j12283606468238_1_alg».proof.Proof.Spec
import proofs.«124538_j12283606468238_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The stages -/

section Stages
variable {F : FTy → Type} [FloatOps F]

/-- a·w for a block a: flatten, multiply into the zero accumulator, restore the shape. -/
def kDot (a : FVec F S8x512x512 .f32) (w : FVec F S512x512 .f32) : FVec F S8x512x512 .f32 :=
  shapeCast S8x512x512 (matmul dot_S4096x512_S512x512_S4096x512_1_0_0_1_n_n none (shapeCast S4096x512 (truncf .bf16 a bitsLt_bf16_f32) shapeCasts_S8x512x512_S4096x512) (truncf .bf16 w bitsLt_bf16_f32) (constant S4096x512 .f32 0x00000000#32)) shapeCasts_S4096x512_S8x512x512

/-- tanh (x·W + b) on the block. -/
def kHidden (x0 : FVec F S8x512x512 .f32) (w : FVec F S512x512 .f32) (bb : FVec F S512 .f32) : FVec F S8x512x512 .f32 :=
  tanh (addf (kDot x0 w) (broadcastTo S8x512x512 (shapeCast S1x1x512 bb shapeCasts_S512_S1x1x512) broadcasts_S1x1x512_S8x512x512))

/-- exp (hidden·U) on the block. -/
def kWeight (x0 : FVec F S8x512x512 .f32) (w : FVec F S512x512 .f32) (bb : FVec F S512 .f32) (u : FVec F S512x512 .f32) : FVec F S8x512x512 .f32 :=
  exp (kDot (kHidden x0 w bb) u)

/-- The mask "row index > column index", as floats. -/
def kAbove : FVec F S512x512 .f32 :=
  sitofp .f32 (extui 32 (cmpi .sgt (iota .tc S512x512 32 [0] iota_S512x512_d0_w32) (iota .tc S512x512 32 [1] iota_S512x512_d1_w32)) natLt_1_32)

/-- The mask "row index < column index", as floats. -/
def kBelow : FVec F S512x512 .f32 :=
  sitofp .f32 (extui 32 (cmpi .slt (iota .tc S512x512 32 [0] iota_S512x512_d0_w32) (iota .tc S512x512 32 [1] iota_S512x512_d1_w32)) natLt_1_32)

/-- The masked weights summed over the sequence axis, plus the small constant. -/
def kColWeight (a : FVec F S8x512x512 .f32) (μ : FVec F S512x512 .f32) : FVec F S8x512 .f32 :=
  addf (multiReduction .add [1] S8x512 (mulf a (broadcastTo S8x512x512 (shapeCast S1x512x512 μ shapeCasts_S512x512_S1x512x512) broadcasts_S1x512x512_S8x512x512)) 0x00000000#32 reduces_S8x512x512_S8x512 (.inl rfl) rfl) (broadcast S8x512 (Scalar.ofBits .f32 0x33D6BF95#32))

/-- The block summed over the sequence axis. -/
def kColSum (x0 : FVec F S8x512x512 .f32) : FVec F S8x512 .f32 :=
  multiReduction .add [1] S8x512 x0 0x00000000#32 reduces_S8x512x512_S8x512 (.inl rfl) rfl

/-- The body's result: the two products side by side. -/
def kOut (x0 : FVec F S8x512x512 .f32) (w : FVec F S512x512 .f32) (bb : FVec F S512 .f32) (u : FVec F S512x512 .f32) : FVec F S8x1024 .f32 :=
  concatenate S8x1024 1 [⟨S8x512, mulf (kColSum x0) (kColWeight (kWeight x0 w bb u) kAbove)⟩, ⟨S8x512, mulf (kColSum x0) (kColWeight (kWeight x0 w bb u) kBelow)⟩] concatenates_S8x512_S8x512_S8x1024_d1

/-- The generated payload is these stages composed. -/
theorem pay_eq (v0 : Vec F S8x512x512 .f32) (v1 : Vec F S512x512 .f32) (v7 : Vec F S512 .f32) (v12 : Vec F S512x512 .f32) :
    k0_pay1 v0 v1 v7 v12 = kOut v0 v1 v7 v12 := rfl

end Stages

/-! ## The specification on one batch member -/

open Cert.DirAttn

/-- The hidden layer, the weights, the masked column weight and one half of the result, for one batch member given as
    its 512 × 512 slice. -/
def rowHidden (xr : Fin 512 → Fin 512 → EReal) (W : Mat) (b : Bias) (s e : Fin 512) : EReal :=
  Ideal.tanh ((∑ k : Fin 512, xr s k * W (ix2 k e)) + b (ix1 e))
def rowWeight (xr : Fin 512 → Fin 512 → EReal) (W U : Mat) (b : Bias) (s e : Fin 512) : EReal :=
  Ideal.exp (∑ k : Fin 512, rowHidden xr W b s k * U (ix2 k e))
def rowColWeight (xr : Fin 512 → Fin 512 → EReal) (W U : Mat) (b : Bias) (μ : Fin 512 → Fin 512 → EReal) (d : Fin 512) : EReal :=
  (∑ s : Fin 512, rowWeight xr W U b s d * μ s d) + eps
def rowHalf (xr : Fin 512 → Fin 512 → EReal) (W U : Mat) (b : Bias) (μ : Fin 512 → Fin 512 → EReal) (d : Fin 512) : EReal :=
  (∑ s : Fin 512, xr s d) * rowColWeight xr W U b μ d

/-- A half of the whole result at batch member β is the one-member half of x's slice at β. -/
theorem half_eq_rowHalf (x : Arr3) (W U : Mat) (b : Bias) (μ : Fin 512 → Fin 512 → EReal) (β : Fin 64) (d : Fin 512) :
    half x W U b μ β d = rowHalf (fun s k => x (ix3 β s k)) W U b μ d := rfl

/-! ## The stages at an index -/

theorem dot_eq_plain : dot_S4096x512_S512x512_S4096x512_1_0_0_1_n_n = DotDims.plain 4096 512 512 := rfl

/-- (a·w)[p, s, e] = ∑ₖ a[p, s, k] · w[k, e]. -/
theorem kDot_apply (a : FVec Ideal S8x512x512 .f32) (w : FVec Ideal S512x512 .f32) (p : Fin 8) (s e : Fin 512) :
    kDot a w (ix3 p s e) = ∑ k : Fin 512, a (ix3 p s k) * w (ix2 k e) := by
  have hrow : p.val * 512 + s.val < 4096 := by have := p.isLt; have := s.isLt; omega
  unfold kDot
  refine (shapeCast_apply _ shapeCasts_S4096x512_S8x512x512 (ix3 p s e) (ix2 (⟨p.val * 512 + s.val, hrow⟩ : Fin 4096) e) ?_).trans ?_
  · rw [Shape.rowMajor_val_two, Shape.rowMajor_val_three]; rfl
  · refine (PlainDot.matmul_zero_apply none _ _ (⟨p.val * 512 + s.val, hrow⟩ : Fin 4096) e).trans ?_
    refine Finset.sum_congr rfl fun k _ => ?_
    refine congrArg₂ (· * ·) ?_ rfl
    exact shapeCast_apply _ shapeCasts_S8x512x512_S4096x512 (ix2 (⟨p.val * 512 + s.val, hrow⟩ : Fin 4096) k) (ix3 p s k)
      (by rw [Shape.rowMajor_val_two, Shape.rowMajor_val_three]; rfl)

/-- The bias copied over members and positions, at (p, s, e), is b[e]. -/
theorem bias_apply (bb : FVec Ideal S512 .f32) (p : Fin 8) (s e : Fin 512) :
    broadcastTo S8x512x512 (shapeCast S1x1x512 bb shapeCasts_S512_S1x1x512) broadcasts_S1x1x512_S8x512x512 (ix3 p s e) = bb (ix1 e) := by
  refine (broadcastTo_apply _ broadcasts_S1x1x512_S8x512x512 (ix3 p s e) (ix3 (0 : Fin 1) (0 : Fin 1) e) (fun a => ?_)).trans ?_
  · match a with
    | ⟨0, _⟩ => rfl
    | ⟨1, _⟩ => rfl
    | ⟨2, _⟩ => rfl
  · exact shapeCast_apply bb shapeCasts_S512_S1x1x512 (ix3 (0 : Fin 1) (0 : Fin 1) e) (ix1 e)
      (by rw [Shape.rowMajor_val_one, Shape.rowMajor_val_three]; simp)

/-- The hidden layer of the block at (p, s, e). -/
theorem kHidden_apply (x0 : FVec Ideal S8x512x512 .f32) (w : FVec Ideal S512x512 .f32) (bb : FVec Ideal S512 .f32) (p : Fin 8) (s e : Fin 512) :
    kHidden x0 w bb (ix3 p s e) = rowHidden (fun s k => x0 (ix3 p s k)) w bb s e := by
  show Ideal.tanh (kDot x0 w (ix3 p s e) + broadcastTo S8x512x512 (shapeCast S1x1x512 bb shapeCasts_S512_S1x1x512) broadcasts_S1x1x512_S8x512x512 (ix3 p s e)) = _
  rw [kDot_apply, bias_apply]
  rfl

/-- The weights of the block at (p, s, e). -/
theorem kWeight_apply (x0 : FVec Ideal S8x512x512 .f32) (w : FVec Ideal S512x512 .f32) (bb : FVec Ideal S512 .f32) (u : FVec Ideal S512x512 .f32) (p : Fin 8) (s e : Fin 512) :
    kWeight x0 w bb u (ix3 p s e) = rowWeight (fun s k => x0 (ix3 p s k)) w u bb s e := by
  show Ideal.exp (kDot (kHidden x0 w bb) u (ix3 p s e)) = _
  rw [kDot_apply]
  unfold rowWeight
  refine congrArg Ideal.exp (Finset.sum_congr rfl fun k _ => ?_)
  rw [kHidden_apply]

/-! ## The masks -/

/-- A one-bit word widened to 32 bits and read signed is the bit read unsigned. -/
theorem one_bit_signed (w : BitVec 1) : (((w.setWidth 32).toInt : ℤ) : ℝ) = ((w.toNat : ℕ) : ℝ) := by
  have h : ∀ v : BitVec 1, (v.setWidth 32).toInt = (v.toNat : ℤ) := by decide
  rw [h w, Int.cast_natCast]

theorem kAbove_apply (s d : Fin 512) : kAbove (F := Ideal) (ix2 s d) = above s d := by
  show ((((IntOp.cmpi .sgt (iota .tc S512x512 32 [0] iota_S512x512_d0_w32 (ix2 s d)) (iota .tc S512x512 32 [1] iota_S512x512_d1_w32 (ix2 s d))).setWidth 32).toInt : ℝ) : EReal) = _
  rw [iota_single_apply, iota_single_apply, one_bit_signed]
  rfl

theorem kBelow_apply (s d : Fin 512) : kBelow (F := Ideal) (ix2 s d) = below s d := by
  show ((((IntOp.cmpi .slt (iota .tc S512x512 32 [0] iota_S512x512_d0_w32 (ix2 s d)) (iota .tc S512x512 32 [1] iota_S512x512_d1_w32 (ix2 s d))).setWidth 32).toInt : ℝ) : EReal) = _
  rw [iota_single_apply, iota_single_apply, one_bit_signed]
  rfl

/-! ## Sums over the sequence axis -/

/-- A [8, 512, 512] array summed over its middle axis, at (p, d): ∑ₛ v[p, s, d]. -/
theorem seqSum_apply (v : FVec Ideal S8x512x512 .f32) (p : Fin 8) (d : Fin 512) :
    multiReduction .add [1] S8x512 v 0x00000000#32 reduces_S8x512x512_S8x512 (.inl rfl) rfl (ix2 p d) = ∑ s : Fin 512, v (ix3 p s d) := by
  refine (Ideal.multiReduction_add_single v 0x00000000#32 reduces_S8x512x512_S8x512 (.inl rfl) rfl (ix2 p d)).trans ?_
  refine Finset.sum_congr rfl fun s _ => congrArg v ?_
  funext a
  match a with
  | ⟨0, _⟩ => rfl
  | ⟨1, _⟩ => rfl
  | ⟨2, _⟩ => rfl

/-- A 512 × 512 mask copied over the 8 members, at (p, s, d), is μ[s, d]. -/
theorem mask_apply (μ : FVec Ideal S512x512 .f32) (p : Fin 8) (s d : Fin 512) :
    broadcastTo S8x512x512 (shapeCast S1x512x512 μ shapeCasts_S512x512_S1x512x512) broadcasts_S1x512x512_S8x512x512 (ix3 p s d) = μ (ix2 s d) := by
  refine (broadcastTo_apply _ broadcasts_S1x512x512_S8x512x512 (ix3 p s d) (ix3 (0 : Fin 1) s d) (fun a => ?_)).trans ?_
  · match a with
    | ⟨0, _⟩ => rfl
    | ⟨1, _⟩ => rfl
    | ⟨2, _⟩ => rfl
  · exact shapeCast_apply μ shapeCasts_S512x512_S1x512x512 (ix3 (0 : Fin 1) s d) (ix2 s d)
      (by rw [Shape.rowMajor_val_two, Shape.rowMajor_val_three]; simp)

theorem kColSum_apply (x0 : FVec Ideal S8x512x512 .f32) (p : Fin 8) (d : Fin 512) :
    kColSum x0 (ix2 p d) = ∑ s : Fin 512, x0 (ix3 p s d) := seqSum_apply x0 p d

theorem kColWeight_apply (a : FVec Ideal S8x512x512 .f32) (μ : FVec Ideal S512x512 .f32) (p : Fin 8) (d : Fin 512) :
    kColWeight a μ (ix2 p d) = (∑ s : Fin 512, a (ix3 p s d) * μ (ix2 s d)) + eps := by
  show multiReduction .add [1] S8x512 (mulf a (broadcastTo S8x512x512 (shapeCast S1x512x512 μ shapeCasts_S512x512_S1x512x512) broadcasts_S1x512x512_S8x512x512)) 0x00000000#32 reduces_S8x512x512_S8x512 (.inl rfl) rfl (ix2 p d) + eps = _
  rw [seqSum_apply]
  refine congrArg (· + eps) (Finset.sum_congr rfl fun s _ => ?_)
  show a (ix3 p s d) * broadcastTo S8x512x512 (shapeCast S1x512x512 μ shapeCasts_S512x512_S1x512x512) broadcasts_S1x512x512_S8x512x512 (ix3 p s d) = _
  rw [mask_apply]

/-! ## The body's result at an index -/

/-- One product of the body at (p, d): the one-member half of member p of the block. -/
theorem kHalf_apply (x0 : FVec Ideal S8x512x512 .f32) (w : FVec Ideal S512x512 .f32) (bb : FVec Ideal S512 .f32) (u : FVec Ideal S512x512 .f32)
    (km : FVec Ideal S512x512 .f32) (μ : Fin 512 → Fin 512 → EReal) (hμ : ∀ s d, km (ix2 s d) = μ s d) (p : Fin 8) (d : Fin 512) :
    mulf (kColSum x0) (kColWeight (kWeight x0 w bb u) km) (ix2 p d) = rowHalf (fun s k => x0 (ix3 p s k)) w u bb μ d := by
  show kColSum x0 (ix2 p d) * kColWeight (kWeight x0 w bb u) km (ix2 p d) = _
  rw [kColSum_apply, kColWeight_apply]
  unfold rowHalf rowColWeight
  refine congrArg (fun z => (∑ s : Fin 512, x0 (ix3 p s d)) * (z + eps)) (Finset.sum_congr rfl fun s _ => ?_)
  rw [kWeight_apply, hμ]

/-- The body's result at (p, j): columns below 512 carry the "above" half, the others the "below" half. -/
theorem kOut_apply (x0 : FVec Ideal S8x512x512 .f32) (w : FVec Ideal S512x512 .f32) (bb : FVec Ideal S512 .f32) (u : FVec Ideal S512x512 .f32)
    (p : Fin 8) (j : Fin 1024) :
    kOut x0 w bb u (ix2 p j)
      = if h : j.val < 512 then rowHalf (fun s k => x0 (ix3 p s k)) w u bb above ⟨j.val, h⟩
        else rowHalf (fun s k => x0 (ix3 p s k)) w u bb below ⟨j.val - 512, by have := j.isLt; omega⟩ := by
  unfold kOut
  by_cases h : j.val < 512
  · rw [dif_pos h]
    refine (concatenate_pair_apply_left (1 : Fin S8x1024.rank) _ _ concatenates_S8x512_S8x512_S8x1024_d1 (ix2 p j) rfl
      (ix2 p (⟨j.val, h⟩ : Fin 512)) (fun b => ?_)).trans ?_
    · match b with
      | ⟨0, _⟩ => rfl
      | ⟨1, _⟩ => rfl
    · exact kHalf_apply x0 w bb u kAbove above kAbove_apply p ⟨j.val, h⟩
  · rw [dif_neg h]
    have hj : j.val - 512 < 512 := by have := j.isLt; omega
    refine (concatenate_pair_apply_right (1 : Fin S8x1024.rank) _ _ concatenates_S8x512_S8x512_S8x1024_d1 (ix2 p j) rfl rfl
      (ix2 p (⟨j.val - 512, hj⟩ : Fin 512)) (fun b hb => ?_) ?_).trans ?_
    · match b with
      | ⟨0, _⟩ => rfl
      | ⟨1, _⟩ => exact absurd rfl hb
    · show (j.val - 512) + 512 = j.val
      omega
    · exact kHalf_apply x0 w bb u kBelow below kBelow_apply p ⟨j.val - 512, hj⟩

end Cert.KernelIdeal.Body

end
-- ==== Proof.KernelArray.lean ====
/-
  From blocks to the array: what the kernel's result array holds after the run.

  The grid has 8 points. At point t the x window stages batch members 8t … 8t+7 (block index (t, 0, 0) of blocks of
  extent [8, 512, 512]); the W, U and b windows stage the whole arrays (block index 0 at every point); the result window
  writes back rows 8t … 8t+7 of the [64, 1024] result (block index (t, 0) of blocks of extent [8, 1024]). Member p of
  block t is member 8t + p of x, and the body's result at (p, j) depends on member p of its block only, so what point t
  writes back is rows 8t … 8t+7 of one whole-array function of the four argument arrays. Row r of the result lies in
  the block of point r / 8, so the eight blocks cover the array, and the array ends holding that function.
-/
import proofs.«124538_j12283606468238_1_alg».proof.Proof.Gen.KernelIdeal.Value
import proofs.«124538_j12283606468238_1_alg».proof.Proof.KernelStages

noncomputable section

namespace Cert.KernelIdeal.WholeArray

open Cert.KernelIdeal Cert.KernelIdeal.Gen Cert.KernelIdeal.Body Cert.DirAttn
open Idealize.ShloMosaic Idealize.ShloMosaic.TcCoe Idealize.SL.Sem Idealize.ShloMosaic.ValueIdx
open Idealize.ShloMosaic.Pipeline (Dat)

/-! ## One block against the whole arrays -/

/-- If member p of a block is member 8q + p of x, the body's result on the block at (p, j) is the specification's at
    (8q + p, j). -/
theorem block_eq (X : Arr3) (W U : Mat) (b : Bias) (x0 : FVec Ideal S8x512x512 .f32) (w u : FVec Ideal S512x512 .f32)
    (bb : FVec Ideal S512 .f32) (q : Fin 8)
    (hx : ∀ (p : Fin 8) (s k : Fin 512), x0 (ix3 p s k) = X (ix3 (⟨q.val * 8 + p.val, by have := q.isLt; have := p.isLt; omega⟩ : Fin 64) s k))
    (hw : w = W) (hu : u = U) (hb : bb = b) (p : Fin 8) (j : Fin 1024) :
    kOut x0 w bb u (ix2 p j) = result X W U b (ix2 (⟨q.val * 8 + p.val, by have := q.isLt; have := p.isLt; omega⟩ : Fin 64) j) := by
  subst hw hu hb
  rw [kOut_apply]
  have hrow : (fun s k => x0 (ix3 p s k)) = fun s k => X (ix3 (⟨q.val * 8 + p.val, by have := q.isLt; have := p.isLt; omega⟩ : Fin 64) s k) :=
    funext fun s => funext fun k => hx p s k
  rw [hrow]
  unfold result
  by_cases h : j.val < 512
  · rw [dif_pos h, dif_pos (show ((ix2 (⟨q.val * 8 + p.val, by have := q.isLt; have := p.isLt; omega⟩ : Fin 64) j) 1).val < 512 from h)]
    rfl
  · rw [dif_neg h, dif_neg (show ¬ ((ix2 (⟨q.val * 8 + p.val, by have := q.isLt; have := p.isLt; omega⟩ : Fin 64) j) 1).val < 512 from h)]
    rfl

/-! ## The windows' blocks -/

variable (m : (ℓ : Loc nD τ sig) → Buf (Elt Ideal) ℓ) (ρ : Dev nD → PrngReg)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The result array as one function of the argument arrays as the region finds them. -/
abbrev wholeResult (c : Dev nD) : S64x1024.Idx → Elt Ideal .f32 :=
  result (V m c main_arg0) (V m c main_arg1) (V m c main_arg2) (V m c main_arg3)

/-- The block indices, decided over the 8 points: point t takes block t of x and of the result on the leading axis and
    block 0 on every other axis of every window. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Every row block of the result is some point's. -/
theorem block_onto : ∀ q : Fin 8, ∃ t : Fin cfg0.N, win0_4.index t = ![q.val, 0] :=
  (by decide +kernel : ∀ q : Fin 8, ∃ t : Fin grid0.N, win0_4.index t = ![q.val, 0])

theorem point_lt (t : Fin cfg0.N) : t.val < 8 := by
  have h : cfg0.N = 8 := N_0
  have := t.isLt
  omega

/-- Member p of the x block of point t is member 8t + p of x. -/
theorem xblock_apply (c : Dev nD) (t : Fin cfg0.N) (p : Fin 8) (s k : Fin 512) :
    iblk m c 0 t (ix3 p s k)
      = V m c main_arg0 (ix3 (⟨t.val * 8 + p.val, by have := point_lt t; have := p.isLt; omega⟩ : Fin 64) s k) := by
  obtain ⟨e0, e1, e2, -⟩ := block_indices t
  show V m c main_arg0 (((cfg0.win 0).blk t).view.emb (ix3 p s k)) = V m c main_arg0 _
  refine congrArg (V m c main_arg0) (funext fun a => Fin.ext ?_)
  match a with
  | ⟨0, _⟩ => show win0_0.index t (0 : Fin 3) * 8 + 1 * p.val = t.val * 8 + p.val; omega
  | ⟨1, _⟩ => show win0_0.index t (1 : Fin 3) * 512 + 1 * s.val = s.val; omega
  | ⟨2, _⟩ => show win0_0.index t (2 : Fin 3) * 512 + 1 * k.val = k.val; omega

/-- The W, U and b blocks of any point are the whole arrays. -/
theorem wblock_eq (c : Dev nD) (t : Fin cfg0.N) : iblk m c 1 t = V m c main_arg1 := by
  obtain ⟨-, -, -, e0, e1, -⟩ := block_indices t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

theorem ublock_eq (c : Dev nD) (t : Fin cfg0.N) : iblk m c 2 t = V m c main_arg2 := by
  obtain ⟨-, -, -, -, -, e0, e1, -⟩ := block_indices t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

theorem bblock_eq (c : Dev nD) (t : Fin cfg0.N) : iblk m c 3 t = V m c main_arg3 := by
  obtain ⟨-, -, -, -, -, -, -, e0, -⟩ := block_indices t
  funext y
  show V m c main_arg3 (((cfg0.win 3).blk t).view.emb y) = V m c main_arg3 y
  refine congrArg (V m c main_arg3) (funext fun a => Fin.ext ?_)
  match a with
  | ⟨0, _⟩ => show win0_3.index t (0 : Fin 1) * 512 + 1 * (y 0).val = (y 0).val; omega

/-! ## What a point writes back, the cover, the array -/

/-- What point t writes back is block t of the whole-array function. -/
theorem flushed_eq (c : Dev nD) (t : Fin cfg0.N) :
    (dats m 0 c).flushed 4 t = ((cfg0.win 4).blk t).view.read (Elt Ideal) (wholeResult m c) := by
  rw [Value.flushed4]
  unfold out0_4
  rw [View.canon_unit_zero zero2]
  simp only [View.ld_unit_zero (S := S8x512x512) zero3, View.ld_unit_zero (S := S512x512) zero2, View.ld_unit_zero (S := S512) zero1]
  rw [pay_eq]
  obtain ⟨-, -, -, -, -, -, -, -, e0, e1⟩ := block_indices t
  funext j
  obtain ⟨p, jj, rfl⟩ : ∃ (p : Fin 8) (jj : Fin 1024), j = ix2 p jj := ⟨j 0, j 1, eq_ix2 j⟩
  show kOut (F := Ideal) (iblk m c 0 t) (iblk m c 1 t) (iblk m c 3 t) (iblk m c 2 t) (ix2 p jj) = wholeResult m c (((cfg0.win 4).blk t).view.emb (ix2 p jj))
  refine (block_eq (V m c main_arg0) (V m c main_arg1) (V m c main_arg2) (V m c main_arg3) (iblk m c 0 t) (iblk m c 1 t) (iblk m c 2 t) (iblk m c 3 t)
    ⟨t.val, point_lt t⟩ (fun p s k => xblock_apply m c t p s k) (wblock_eq m c t) (ublock_eq m c t) (bblock_eq m c t) p jj).trans ?_
  refine congrArg (wholeResult m c) (funext fun a => Fin.ext ?_)
  match a with
  | ⟨0, _⟩ => show t.val * 8 + p.val = win0_4.index t (0 : Fin 2) * 8 + 1 * p.val; omega
  | ⟨1, _⟩ => show jj.val = win0_4.index t (1 : Fin 2) * 1024 + 1 * jj.val; omega

/-- An index of the result is in point t's block iff each coordinate is in the block's range on its axis. -/
theorem mem_block (t : Fin cfg0.N) (i : S64x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v0).slice (win0_4.rect t)).set ↔ _
  rw [View.set_slice_whole, Rect.mem_set_unit]
  exact Iff.rfl

/-- Row r of the result lies in the block of point r / 8. -/
theorem covered (i : S64x1024.Idx) : ∃ t : Fin cfg0.N, (cfg0.win 4).flush t = true ∧ i ∈ ((cfg0.win 4).blk t).view.set := by
  have hi0 : (i 0).val < 64 := (i 0).isLt
  have hi1 : (i 1).val < 1024 := (i 1).isLt
  obtain ⟨t, ht⟩ := block_onto ⟨(i 0).val / 8, by omega⟩
  have q0 : win0_4.index t (0 : Fin 2) = (i 0).val / 8 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 1024 ≤ (i 1).val ∧ (i 1).val < win0_4.index t (1 : Fin 2) * 1024 + 1024; omega

/-- The result array after the run is the whole-array function of the arguments. -/
theorem final (c : Dev nD) : (dats m 0 c).arrAt 4 cfg0.N = wholeResult m c :=
  (dats m 0 c).arrAt_eq_of_cover 4 (wholeResult m c) (fun t _ => flushed_eq m c t) (covered)

/-- The kernel's run: the result array ends at the specification of the argument arrays, which end unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.WholeArray

end
-- ==== Proof.RefTerm.lean ====
/-
  The reference's result as one term of its four argument arrays, named stage by stage.

  The host program computes, in this order: the hidden layer tanh (x·W + b) (a contraction of x's last axis with W's
  first, the bias copied along the first two axes); the weights exp (hidden·U); the 0/1 mask "row index > column
  index" of a 512 × 512 grid and its transpose; for a mask, the column weight — the masked weights summed over the
  sequence axis (axis 1), kept as a [64, 1, 512] array, plus the small constant —; for a column weight, one half of the
  result — x times the column weight copied along the sequence axis, summed over that axis —; and the two halves side by
  side along the last axis.
-/
import proofs.«124538_j12283606468238_1_alg».proof.Proof.Gen.ReferenceIdeal

noncomputable section

namespace Cert.ReferenceIdeal.RefValue

open Cert.ReferenceIdeal Cert.ReferenceIdeal.Gen Idealize.ShloMosaic

variable {F : FTy → Type} [FloatOps F]

/-- tanh (x·W + b). -/
def refHidden (x : FVec F S64x512x512 .f32) (W : FVec F S512x512 .f32) (b : FVec F S512 .f32) : FVec F S64x512x512 .f32 :=
  Host.tanh (addf (Host.dotGeneral dot_S64x512x512_S512x512_S64x512x512_2_0_01_1_n_n none x W)
    (broadcastInDim S64x512x512 ![0, 1, 2] bcast_S1x1x512_S64x512x512_0_1_2 (broadcastInDim S1x1x512 ![2] bcast_S512_S1x1x512_2 b)))

/-- exp (hidden·U). -/
def refWeight (x : FVec F S64x512x512 .f32) (W U : FVec F S512x512 .f32) (b : FVec F S512 .f32) : FVec F S64x512x512 .f32 :=
  Host.exp (Host.dotGeneral dot_S64x512x512_S512x512_S64x512x512_2_0_01_1_n_n none (refHidden x W b) U)

/-- The mask "row index > column index" of a 512 × 512 grid, as floats. -/
def refAbove : FVec F S512x512 .f32 :=
  uitofp .f32 (cmpi .sgt (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))

/-- Its transpose: "column index > row index". -/
def refBelow : FVec F S512x512 .f32 :=
  transpose S512x512 [1, 0] (refAbove (F := F)) transposes_S512x512_S512x512_1_0

/-- The masked weights summed over the sequence axis, kept [64, 1, 512], plus the small constant. -/
def refColWeight (a : FVec F S64x512x512 .f32) (μ : FVec F S512x512 .f32) : FVec F S64x1x512 .f32 :=
  addf (broadcastInDim S64x1x512 ![0, 2] bcast_S64x512_S64x1x512_0_2 (Host.reduceAdd (mulf a (broadcastInDim S64x512x512 ![0, 1, 2] bcast_S1x512x512_S64x512x512_0_1_2 (broadcastInDim S1x512x512 ![1, 2] bcast_S512x512_S1x512x512_1_2 μ))) (constant S_ .f32 0x00000000#32) reducesTo_S64x512x512_S64x512_d1 h_S_)) (broadcastInDim S64x1x512 ![] bcast_S_S64x1x512 (constant S_ .f32 0x33D6BF95#32))

/-- x times the column weight copied along the sequence axis, summed over that axis. -/
def refHalf (x : FVec F S64x512x512 .f32) (cw : FVec F S64x1x512 .f32) : FVec F S64x512 .f32 :=
  Host.reduceAdd (mulf x (broadcastInDim S64x512x512 ![0, 1, 2] bcast_S64x1x512_S64x512x512_0_1_2 cw)) (constant S_ .f32 0x00000000#32) reducesTo_S64x512x512_S64x512_d1 h_S_

/-- The two halves side by side. -/
def refOut (x : FVec F S64x512x512 .f32) (W U : FVec F S512x512 .f32) (b : FVec F S512 .f32) : FVec F S64x1024 .f32 :=
  concatenate S64x1024 1 [⟨S64x512, refHalf x (refColWeight (refWeight x W U b) refAbove)⟩, ⟨S64x512, refHalf x (refColWeight (refWeight x W U b) refBelow)⟩] concatenates_S64x512_S64x512_S64x1024_d1

end Cert.ReferenceIdeal.RefValue

end
-- ==== Proof.RefRun.lean ====
/-
  The reference's run, read back: @main as the list of its 42 host operations, and what its buffers hold once they have
  run in order. Every weakly fair execution terminates with the result buffer at `refOut` of the four argument arrays
  (the composed term of RefTerm: hidden layer, weights, the two masks, the two column weights, the two halves, set side
  by side) and the arguments unchanged.

  The last operation joins its two operands inside a list, so the result buffer is read in two steps: each half's buffer
  as an equation of its own (`half_above`, `half_below`), then the join by congruence (`out_eq`).
-/
import proofs.«124538_j12283606468238_1_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 42 operations, in order. -/
abbrev ops : List (HloOp τ sig (Elt F)) :=
  [ binary main_arg0 main_arg1 main_v0 ((fun l r => Host.dotGeneral dot_S64x512x512_S512x512_S64x512x512_2_0_01_1_n_n none l r) : (⟨S64x512x512, .f32⟩ : BufTy).Contents (Elt F) → (⟨S512x512, .f32⟩ : BufTy).Contents (Elt F) → (⟨S64x512x512, .f32⟩ : BufTy).Contents (Elt F)),
    unary main_arg3 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S64x512x512 ![0, 1, 2] bcast_S1x1x512_S64x512x512_0_1_2 : (⟨S1x1x512, .f32⟩ : BufTy).Contents (Elt F) → (⟨S64x512x512, .f32⟩ : BufTy).Contents (Elt F)),
    binary main_v0 main_v2 main_v3 (addf : (⟨S64x512x512, .f32⟩ : BufTy).Contents (Elt F) → (⟨S64x512x512, .f32⟩ : BufTy).Contents (Elt F) → (⟨S64x512x512, .f32⟩ : BufTy).Contents (Elt F)),
    unary main_v3 main_v4 (Host.tanh : (⟨S64x512x512, .f32⟩ : BufTy).Contents (Elt F) → (⟨S64x512x512, .f32⟩ : BufTy).Contents (Elt F)),
    binary main_v4 main_arg2 main_v5 ((fun l r => Host.dotGeneral dot_S64x512x512_S512x512_S64x512x512_2_0_01_1_n_n none l r) : (⟨S64x512x512, .f32⟩ : BufTy).Contents (Elt F) → (⟨S512x512, .f32⟩ : BufTy).Contents (Elt F) → (⟨S64x512x512, .f32⟩ : BufTy).Contents (Elt F)),
    unary main_v5 main_v6 (Host.exp : (⟨S64x512x512, .f32⟩ : BufTy).Contents (Elt F) → (⟨S64x512x512, .f32⟩ : BufTy).Contents (Elt F)),
    nullary main_v7 (iotaInDim S512 32 0),
    unary main_v7 main_v8 (broadcastInDim S512x1 ![0] bcast_S512_S512x1_0 : (⟨S512, .i32⟩ : BufTy).Contents (Elt F) → (⟨S512x1, .i32⟩ : BufTy).Contents (Elt F)),
    unary main_v7 main_v9 (broadcastInDim S1x512 ![1] bcast_S512_S1x512_1 : (⟨S512, .i32⟩ : BufTy).Contents (Elt F) → (⟨S1x512, .i32⟩ : BufTy).Contents (Elt F)),
    unary main_v8 main_v10 (broadcastInDim S512x512 ![0, 1] bcast_S512x1_S512x512_0_1 : (⟨S512x1, .i32⟩ : BufTy).Contents (Elt F) → (⟨S512x512, .i32⟩ : BufTy).Contents (Elt F)),
    unary main_v9 main_v11 (broadcastInDim S512x512 ![0, 1] bcast_S1x512_S512x512_0_1 : (⟨S1x512, .i32⟩ : BufTy).Contents (Elt F) → (⟨S512x512, .i32⟩ : BufTy).Contents (Elt F)),
    binary main_v10 main_v11 main_v12 (cmpi .sgt : (⟨S512x512, .i32⟩ : BufTy).Contents (Elt F) → (⟨S512x512, .i32⟩ : BufTy).Contents (Elt F) → (⟨S512x512, .i1⟩ : BufTy).Contents (Elt F)),
    unary main_v12 main_v13 (uitofp .f32 : (⟨S512x512, .i1⟩ : BufTy).Contents (Elt F) → (⟨S512x512, .f32⟩ : BufTy).Contents (Elt F)),
    unary main_v13 main_v14 ((transpose S512x512 [1, 0] · transposes_S512x512_S512x512_1_0) : (⟨S512x512, .f32⟩ : BufTy).Contents (Elt F) → (⟨S512x512, .f32⟩ : BufTy).Contents (Elt F)),
    unary main_v13 main_v15 (broadcastInDim S1x512x512 ![1, 2] bcast_S512x512_S1x512x512_1_2 : (⟨S512x512, .f32⟩ : BufTy).Contents (Elt F) → (⟨S1x512x512, .f32⟩ : BufTy).Contents (Elt F)),
    unary main_v15 main_v16 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v6 main_v16 main_v17 (mulf : (⟨S64x512x512, .f32⟩ : BufTy).Contents (Elt F) → (⟨S64x512x512, .f32⟩ : BufTy).Contents (Elt F) → (⟨S64x512x512, .f32⟩ : BufTy).Contents (Elt F)),
    nullary main_cst (constant S_ .f32 0x00000000#32),
    binary main_v17 main_cst main_v18 ((fun x v => Host.reduceAdd x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
    unary main_v18 main_v19 (broadcastInDim S64x1x512 ![0, 2] bcast_S64x512_S64x1x512_0_2 : (⟨S64x512, .f32⟩ : BufTy).Contents (Elt F) → (⟨S64x1x512, .f32⟩ : BufTy).Contents (Elt F)),
    nullary main_cst_0 (constant S_ .f32 0x33D6BF95#32),
    unary main_cst_0 main_v20 (broadcastInDim S64x1x512 ![] bcast_S_S64x1x512 : (⟨S_, .f32⟩ : BufTy).Contents (Elt F) → (⟨S64x1x512, .f32⟩ : BufTy).Contents (Elt F)),
    binary main_v19 main_v20 main_v21 (addf : (⟨S64x1x512, .f32⟩ : BufTy).Contents (Elt F) → (⟨S64x1x512, .f32⟩ : BufTy).Contents (Elt F) → (⟨S64x1x512, .f32⟩ : BufTy).Contents (Elt F)),
    unary main_v14 main_v22 (broadcastInDim S1x512x512 ![1, 2] bcast_S512x512_S1x512x512_1_2 : (⟨S512x512, .f32⟩ : BufTy).Contents (Elt F) → (⟨S1x512x512, .f32⟩ : BufTy).Contents (Elt F)),
    unary main_v22 main_v23 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v6 main_v23 main_v24 (mulf : (⟨S64x512x512, .f32⟩ : BufTy).Contents (Elt F) → (⟨S64x512x512, .f32⟩ : BufTy).Contents (Elt F) → (⟨S64x512x512, .f32⟩ : BufTy).Contents (Elt F)),
    nullary main_cst_1 (constant S_ .f32 0x00000000#32),
    binary main_v24 main_cst_1 main_v25 ((fun x v => Host.reduceAdd x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
    unary main_v25 main_v26 (broadcastInDim S64x1x512 ![0, 2] bcast_S64x512_S64x1x512_0_2 : (⟨S64x512, .f32⟩ : BufTy).Contents (Elt F) → (⟨S64x1x512, .f32⟩ : BufTy).Contents (Elt F)),
    nullary main_cst_2 (constant S_ .f32 0x33D6BF95#32),
    unary main_cst_2 main_v27 (broadcastInDim S64x1x512 ![] bcast_S_S64x1x512 : (⟨S_, .f32⟩ : BufTy).Contents (Elt F) → (⟨S64x1x512, .f32⟩ : BufTy).Contents (Elt F)),
    binary main_v26 main_v27 main_v28 (addf : (⟨S64x1x512, .f32⟩ : BufTy).Contents (Elt F) → (⟨S64x1x512, .f32⟩ : BufTy).Contents (Elt F) → (⟨S64x1x512, .f32⟩ : BufTy).Contents (Elt F)),
    unary main_v21 main_v29 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_arg0 main_v29 main_v30 (mulf : (⟨S64x512x512, .f32⟩ : BufTy).Contents (Elt F) → (⟨S64x512x512, .f32⟩ : BufTy).Contents (Elt F) → (⟨S64x512x512, .f32⟩ : BufTy).Contents (Elt F)),
    nullary main_cst_3 (constant S_ .f32 0x00000000#32),
    binary main_v30 main_cst_3 main_v31 ((fun x v => Host.reduceAdd x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
    unary main_v28 main_v32 (broadcastInDim S64x512x512 ![0, 1, 2] bcast_S64x1x512_S64x512x512_0_1_2 : (⟨S64x1x512, .f32⟩ : BufTy).Contents (Elt F) → (⟨S64x512x512, .f32⟩ : BufTy).Contents (Elt F)),
    binary main_arg0 main_v32 main_v33 (mulf : (⟨S64x512x512, .f32⟩ : BufTy).Contents (Elt F) → (⟨S64x512x512, .f32⟩ : BufTy).Contents (Elt F) → (⟨S64x512x512, .f32⟩ : BufTy).Contents (Elt F)),
    nullary main_cst_4 (constant S_ .f32 0x00000000#32),
    binary main_v33 main_cst_4 main_v34 ((fun x v => Host.reduceAdd x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
    binary main_v31 main_v34 main_v35 ((fun a b => concatenate S64x1024 1 [⟨S64x512, a⟩, ⟨S64x512, b⟩] concatenates_S64x512_S64x512_S64x1024_d1) : (⟨S64x512, .f32⟩ : BufTy).Contents (Elt F) → (⟨S64x512, .f32⟩ : BufTy).Contents (Elt F) → (⟨S64x1024, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., binary_bufs_sub .., unary_bufs_sub .., binary_bufs_sub .., nullary_bufs_sub .., binary_bufs_sub .., binary_bufs_sub ..⟩

set_option maxRecDepth 8192 in
set_option maxHeartbeats 2000000 in
/-- After all 42 operations the first half's buffer holds x times the column weight of the mask "row > column", summed
    over the sequence axis: the operations' composed term is `refHalf` of the stages of RefTerm, which unfold to it. -/
theorem half_above (V : Valuation τ sig (Elt F)) :
    after ops V (Proc.devRef .tc main_v31)
      = refHalf (V (Proc.devRef .tc main_arg0)) (refColWeight (refWeight (V (Proc.devRef .tc main_arg0)) (V (Proc.devRef .tc main_arg1)) (V (Proc.devRef .tc main_arg2)) (V (Proc.devRef .tc main_arg3))) refAbove) := by
  after_results_simp
  rfl

set_option maxRecDepth 8192 in
set_option maxHeartbeats 2000000 in
/-- The second half's buffer likewise, over the transposed mask. -/
theorem half_below (V : Valuation τ sig (Elt F)) :
    after ops V (Proc.devRef .tc main_v34)
      = refHalf (V (Proc.devRef .tc main_arg0)) (refColWeight (refWeight (V (Proc.devRef .tc main_arg0)) (V (Proc.devRef .tc main_arg1)) (V (Proc.devRef .tc main_arg2)) (V (Proc.devRef .tc main_arg3))) refBelow) := by
  after_results_simp
  rfl

set_option maxRecDepth 8192 in
set_option maxHeartbeats 2000000 in
/-- The result buffer: the last operation sets the two halves side by side. Its two operands sit inside the
    concatenate's list, so they are read as equations of their own (`half_above`, `half_below`: the last operation
    writes neither of their buffers) and joined by congruence. -/
theorem out_eq (V : Valuation τ sig (Elt F)) :
    after ops V (Proc.devRef .tc main_v35) = refOut (V (Proc.devRef .tc main_arg0)) (V (Proc.devRef .tc main_arg1)) (V (Proc.devRef .tc main_arg2)) (V (Proc.devRef .tc main_arg3)) := by
  have hA := half_above (F := F) V
  have hB := half_below (F := F) V
  simp only [after_cons, after_nil] at hA hB ⊢
  rw [binary_result_ne _ _ _ _ _ _ _ _ (by decide)] at hA hB
  rw [binary_result]
  exact congrArg₂ (fun a b => concatenate S64x1024 1 [⟨S64x512, a⟩, ⟨S64x512, b⟩] concatenates_S64x512_S64x512_S64x1024_d1) hA hB

set_option maxRecDepth 8192 in
set_option maxHeartbeats 2000000 in
/-- On every device, for any float values, from any memory with zero counters: every weakly fair execution of
    @main terminates with the result at `refOut` of the four arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v35).trans (out_eq (launchContents m c)),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefValue

end
-- ==== Proof.RefValue.lean ====
/-
  The reference's result, stage by stage, read at an index over the extended reals, and its equality with the
  specification.

  Each stage of the reference's term is read at explicit coordinates (β, s, e), (s, d) or (β, d): a contraction of the
  last axis of a [64, 512, 512] array with the first axis of a [512, 512] matrix is the sum over k of the products; a
  copy along new or unit axes reads the operand at the remaining coordinates; a sum over the sequence axis from a zero
  initial value is the sum over s. Put together, each half of the result is the sum over s of x[β,s,d] times the masked
  column weight, which for arrays of real entries is the column sum of x times that weight.
-/
import proofs.«124538_j12283606468238_1_alg».proof.Proof.RefTerm
import proofs.«124538_j12283606468238_1_alg».proof.Proof.Spec
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## The contraction at an index -/

/-- The left operand's batch coordinate is the result's. -/
theorem lhs_ax0 (j : S64x512x512.Idx) (q : dot_S64x512x512_S512x512_S64x512x512_2_0_01_1_n_n.contr.Idx) : (dot_S64x512x512_S512x512_S64x512x512_2_0_01_1_n_n.lhsIdx j q 0).val = (j 0).val := by
  unfold DotDims.lhsIdx
  rw [dif_neg (show ¬(0 : Fin S64x512x512.rank) ∈ dot_S64x512x512_S512x512_S64x512x512_2_0_01_1_n_n.lhsBatch by decide),
    dif_pos (show (0 : Fin S64x512x512.rank) ∈ dot_S64x512x512_S512x512_S64x512x512_2_0_01_1_n_n.lhsNonContracting by decide)]
  rfl

/-- The left operand's sequence coordinate is the result's. -/
theorem lhs_ax1 (j : S64x512x512.Idx) (q : dot_S64x512x512_S512x512_S64x512x512_2_0_01_1_n_n.contr.Idx) : (dot_S64x512x512_S512x512_S64x512x512_2_0_01_1_n_n.lhsIdx j q 1).val = (j 1).val := by
  unfold DotDims.lhsIdx
  rw [dif_neg (show ¬(1 : Fin S64x512x512.rank) ∈ dot_S64x512x512_S512x512_S64x512x512_2_0_01_1_n_n.lhsBatch by decide),
    dif_pos (show (1 : Fin S64x512x512.rank) ∈ dot_S64x512x512_S512x512_S64x512x512_2_0_01_1_n_n.lhsNonContracting by decide)]
  rfl

/-- The left operand's last coordinate is the contraction coordinate. -/
theorem lhs_ax2 (j : S64x512x512.Idx) (q : dot_S64x512x512_S512x512_S64x512x512_2_0_01_1_n_n.contr.Idx) :
    (dot_S64x512x512_S512x512_S64x512x512_2_0_01_1_n_n.lhsIdx j q 2).val = (q ⟨0, show 0 < dot_S64x512x512_S512x512_S64x512x512_2_0_01_1_n_n.contr.rank from Nat.one_pos⟩).val :=
  dot_S64x512x512_S512x512_S64x512x512_2_0_01_1_n_n.lhsIdx_val_of_single rfl j q

/-- The right operand's first coordinate is the contraction coordinate. -/
theorem rhs_ax0 (j : S64x512x512.Idx) (q : dot_S64x512x512_S512x512_S64x512x512_2_0_01_1_n_n.contr.Idx) :
    (dot_S64x512x512_S512x512_S64x512x512_2_0_01_1_n_n.rhsIdx j q 0).val = (q ⟨0, show 0 < dot_S64x512x512_S512x512_S64x512x512_2_0_01_1_n_n.contr.rank from Nat.one_pos⟩).val :=
  dot_S64x512x512_S512x512_S64x512x512_2_0_01_1_n_n.rhsIdx_val_of_single rfl j q

/-- The right operand's second coordinate is the result's last. -/
theorem rhs_ax1 (j : S64x512x512.Idx) (q : dot_S64x512x512_S512x512_S64x512x512_2_0_01_1_n_n.contr.Idx) : (dot_S64x512x512_S512x512_S64x512x512_2_0_01_1_n_n.rhsIdx j q 1).val = (j 2).val := by
  unfold DotDims.rhsIdx
  rw [dif_neg (show ¬(1 : Fin S512x512.rank) ∈ dot_S64x512x512_S512x512_S64x512x512_2_0_01_1_n_n.rhsBatch by decide),
    dif_pos (show (1 : Fin S512x512.rank) ∈ dot_S64x512x512_S512x512_S64x512x512_2_0_01_1_n_n.rhsNonContracting by decide)]
  rfl

/-- The product at (β, s, e): the sum over k of l[β,s,k] · r[k,e]. -/
theorem dot_apply (l : FVec Ideal S64x512x512 .f32) (r : FVec Ideal S512x512 .f32) (β : Fin 64) (s e : Fin 512) :
    Host.dotGeneral (F := Ideal) dot_S64x512x512_S512x512_S64x512x512_2_0_01_1_n_n none l r (ix3 β s e) = ∑ k : Fin 512, l (ix3 β s k) * r (ix2 k e) := by
  refine (Ideal.dotGeneral_apply dot_S64x512x512_S512x512_S64x512x512_2_0_01_1_n_n none .single l r (ix3 β s e)).trans ?_
  rw [← Equiv.sum_comp (contrEquiv1 dot_S64x512x512_S512x512_S64x512x512_2_0_01_1_n_n 512 rfl rfl).symm]
  refine Finset.sum_congr rfl fun k _ => ?_
  have hk := contrEquiv1_symm_val dot_S64x512x512_S512x512_S64x512x512_2_0_01_1_n_n 512 rfl rfl k
  have el : dot_S64x512x512_S512x512_S64x512x512_2_0_01_1_n_n.lhsIdx (ix3 β s e) ((contrEquiv1 dot_S64x512x512_S512x512_S64x512x512_2_0_01_1_n_n 512 rfl rfl).symm k) = ix3 β s k :=
    funext fun a => Fin.ext (by
      match a with
      | ⟨0, _⟩ => exact lhs_ax0 _ _
      | ⟨1, _⟩ => exact lhs_ax1 _ _
      | ⟨2, _⟩ => exact (lhs_ax2 _ _).trans hk)
  have er : dot_S64x512x512_S512x512_S64x512x512_2_0_01_1_n_n.rhsIdx (ix3 β s e) ((contrEquiv1 dot_S64x512x512_S512x512_S64x512x512_2_0_01_1_n_n 512 rfl rfl).symm k) = ix2 k e :=
    funext fun a => Fin.ext (by
      match a with
      | ⟨0, _⟩ => exact (rhs_ax0 _ _).trans hk
      | ⟨1, _⟩ => exact rhs_ax1 _ _)
  rw [el, er]

/-! ## The hidden layer and the weights -/

/-- The bias copied along the batch and sequence axes reads b[e]. -/
theorem bias_apply (b : FVec Ideal S512 .f32) (β : Fin 64) (s e : Fin 512) :
    broadcastInDim S64x512x512 ![0, 1, 2] bcast_S1x1x512_S64x512x512_0_1_2
        (broadcastInDim S1x1x512 ![2] bcast_S512_S1x1x512_2 b) (ix3 β s e) = b (ix1 e) := by
  refine (broadcastInDim_apply _ _ _ (ix3 β s e) (ix3 (0 : Fin 1) (0 : Fin 1) e)
    (fun a => match a with | ⟨0, _⟩ => rfl | ⟨1, _⟩ => rfl | ⟨2, _⟩ => rfl)).trans ?_
  exact broadcastInDim_apply _ _ _ _ (ix1 e) (fun a => match a with | ⟨0, _⟩ => rfl)

/-- The hidden layer at (β, s, e). -/
theorem refHidden_apply (x : FVec Ideal S64x512x512 .f32) (W : FVec Ideal S512x512 .f32) (b : FVec Ideal S512 .f32)
    (β : Fin 64) (s e : Fin 512) :
    refHidden (F := Ideal) x W b (ix3 β s e) = Cert.DirAttn.hidden x W b β s e := by
  unfold refHidden Cert.DirAttn.hidden
  show Ideal.tanh (Host.dotGeneral (F := Ideal) dot_S64x512x512_S512x512_S64x512x512_2_0_01_1_n_n none x W (ix3 β s e)
      + broadcastInDim S64x512x512 ![0, 1, 2] bcast_S1x1x512_S64x512x512_0_1_2
          (broadcastInDim S1x1x512 ![2] bcast_S512_S1x1x512_2 b) (ix3 β s e)) = _
  rw [dot_apply, bias_apply]

/-- The weights at (β, s, e). -/
theorem refWeight_apply (x : FVec Ideal S64x512x512 .f32) (W U : FVec Ideal S512x512 .f32) (b : FVec Ideal S512 .f32)
    (β : Fin 64) (s e : Fin 512) :
    refWeight (F := Ideal) x W U b (ix3 β s e) = Cert.DirAttn.weight x W U b β s e := by
  unfold refWeight Cert.DirAttn.weight
  show Ideal.exp (Host.dotGeneral (F := Ideal) dot_S64x512x512_S512x512_S64x512x512_2_0_01_1_n_n none (refHidden (F := Ideal) x W b) U (ix3 β s e)) = _
  rw [dot_apply]
  exact congrArg Ideal.exp (Finset.sum_congr rfl fun k _ => by rw [refHidden_apply])

/-! ## The two masks -/

/-- The row index copied along the columns reads s. -/
theorem rowIota_apply (s d : Fin 512) :
    broadcastInDim S512x512 ![0, 1] bcast_S512x1_S512x512_0_1
        (broadcastInDim S512x1 ![0] bcast_S512_S512x1_0 (iotaInDim S512 32 0)) (ix2 s d) = BitVec.ofNat 32 s.val := by
  refine (broadcastInDim_apply _ _ _ (ix2 s d) (ix2 s (0 : Fin 1))
    (fun a => match a with | ⟨0, _⟩ => rfl | ⟨1, _⟩ => rfl)).trans ?_
  refine (broadcastInDim_apply _ _ _ _ (ix1 s) (fun a => match a with | ⟨0, _⟩ => rfl)).trans ?_
  rfl

/-- The column index copied along the rows reads d. -/
theorem colIota_apply (s d : Fin 512) :
    broadcastInDim S512x512 ![0, 1] bcast_S1x512_S512x512_0_1
        (broadcastInDim S1x512 ![1] bcast_S512_S1x512_1 (iotaInDim S512 32 0)) (ix2 s d) = BitVec.ofNat 32 d.val := by
  refine (broadcastInDim_apply _ _ _ (ix2 s d) (ix2 (0 : Fin 1) d)
    (fun a => match a with | ⟨0, _⟩ => rfl | ⟨1, _⟩ => rfl)).trans ?_
  refine (broadcastInDim_apply _ _ _ _ (ix1 d) (fun a => match a with | ⟨0, _⟩ => rfl)).trans ?_
  rfl

/-- The mask "s > d" at (s, d). -/
theorem refAbove_apply (s d : Fin 512) : refAbove (F := Ideal) (ix2 s d) = Cert.DirAttn.above s d := by
  unfold refAbove Cert.DirAttn.above
  show (((IntOp.cmpi .sgt
      (broadcastInDim S512x512 ![0, 1] bcast_S512x1_S512x512_0_1
        (broadcastInDim S512x1 ![0] bcast_S512_S512x1_0 (iotaInDim S512 32 0)) (ix2 s d))
      (broadcastInDim S512x512 ![0, 1] bcast_S1x512_S512x512_0_1
        (broadcastInDim S1x512 ![1] bcast_S512_S1x512_1 (iotaInDim S512 32 0)) (ix2 s d))).toNat : ℝ) : EReal) = _
  rw [rowIota_apply, colIota_apply]

/-- The transposed mask at (s, d) is "s < d": the same signed test with the operands exchanged. -/
theorem refBelow_apply (s d : Fin 512) : refBelow (F := Ideal) (ix2 s d) = Cert.DirAttn.below s d := by
  unfold refBelow
  refine (transpose_apply [1, 0] (refAbove (F := Ideal)) transposes_S512x512_S512x512_1_0 (ix2 s d) (ix2 d s)
    (fun b => match b with | ⟨0, _⟩ => rfl | ⟨1, _⟩ => rfl)).trans ?_
  rw [refAbove_apply]
  rfl

/-! ## The column weight and a half of the result -/

/-- The index over (β, d) with s on the sequence axis. -/
theorem lift_eq (h : S64x512x512.Reduces [1] S64x512) (β : Fin 64) (d s : Fin 512) :
    h.lift (ix2 β d) s = ix3 β s d :=
  funext fun a => Fin.ext (by
    match a with
    | ⟨0, _⟩ => rfl
    | ⟨1, _⟩ => rfl
    | ⟨2, _⟩ => rfl)

/-- A sum over the sequence axis from the zero initial value, at (β, d). -/
theorem seqSum_apply (v : FVec Ideal S64x512x512 .f32) (β : Fin 64) (d : Fin 512) :
    Host.reduceAdd (F := Ideal) v (constant (F := Ideal) S_ .f32 0x00000000#32) reducesTo_S64x512x512_S64x512_d1 h_S_ (ix2 β d)
      = ∑ s : Fin 512, v (ix3 β s d) := by
  have hR : S64x512x512.Reduces [1] S64x512 := by decide
  refine (hostReduceAdd_apply v _ reducesTo_S64x512x512_S64x512_d1 h_S_ (ix2 β d)).trans ?_
  rw [Ideal.hostReduceAdd_single reducesTo_S64x512x512_S64x512_d1 hR]
  show Ideal.ofBits .f32 0x00000000#32 + _ = _
  rw [Ideal.ofBits_zero_f32, zero_add]
  exact Finset.sum_congr rfl fun s _ => congrArg v (lift_eq hR β d s)

/-- The masked weights summed over the sequence axis, plus the small constant, at (β, 0, d). -/
theorem refColWeight_apply (a : FVec Ideal S64x512x512 .f32) (μ : FVec Ideal S512x512 .f32) (β : Fin 64) (d : Fin 512) :
    refColWeight (F := Ideal) a μ (ix3 β (0 : Fin 1) d)
      = (∑ s : Fin 512, a (ix3 β s d) * μ (ix2 s d)) + Cert.DirAttn.eps := by
  unfold refColWeight Cert.DirAttn.eps
  refine congrArg₂ (· + ·) ?_ ?_
  · refine (broadcastInDim_apply _ _ _ (ix3 β (0 : Fin 1) d) (ix2 β d)
      (fun a => match a with | ⟨0, _⟩ => rfl | ⟨1, _⟩ => rfl)).trans ?_
    rw [seqSum_apply]
    refine Finset.sum_congr rfl fun s _ => ?_
    show a (ix3 β s d) * _ = _
    refine congrArg (a (ix3 β s d) * ·) ?_
    refine (broadcastInDim_apply _ _ _ (ix3 β s d) (ix3 (0 : Fin 1) s d)
      (fun a => match a with | ⟨0, _⟩ => rfl | ⟨1, _⟩ => rfl | ⟨2, _⟩ => rfl)).trans ?_
    exact broadcastInDim_apply _ _ _ _ (ix2 s d) (fun a => match a with | ⟨0, _⟩ => rfl | ⟨1, _⟩ => rfl)
  · exact broadcastInDim_scalar_apply _ _ _

/-- One half of the result at (β, d): the sum over s of x[β,s,d] times the column weight at (β, 0, d). -/
theorem refHalf_apply (x : FVec Ideal S64x512x512 .f32) (cw : FVec Ideal S64x1x512 .f32) (β : Fin 64) (d : Fin 512) :
    refHalf (F := Ideal) x cw (ix2 β d) = ∑ s : Fin 512, x (ix3 β s d) * cw (ix3 β (0 : Fin 1) d) := by
  unfold refHalf
  rw [seqSum_apply]
  refine Finset.sum_congr rfl fun s _ => ?_
  show x (ix3 β s d) * _ = _
  refine congrArg (x (ix3 β s d) * ·) ?_
  exact broadcastInDim_apply _ _ _ (ix3 β s d) (ix3 β (0 : Fin 1) d)
    (fun a => match a with | ⟨0, _⟩ => rfl | ⟨1, _⟩ => rfl | ⟨2, _⟩ => rfl)

/-! ## The result -/

/-- A half of the reference's result, for a mask read as μ, is the specification's half with the factor inside the sum. -/
theorem refHalf_eq_halfInside (x : FVec Ideal S64x512x512 .f32) (W U : FVec Ideal S512x512 .f32) (b : FVec Ideal S512 .f32)
    (m : FVec Ideal S512x512 .f32) (μ : Fin 512 → Fin 512 → EReal) (hm : ∀ s d, m (ix2 s d) = μ s d) (β : Fin 64) (d : Fin 512) :
    refHalf (F := Ideal) x (refColWeight (F := Ideal) (refWeight (F := Ideal) x W U b) m) (ix2 β d)
      = Cert.DirAttn.halfInside x W U b μ β d := by
  rw [refHalf_apply, refColWeight_apply]
  unfold Cert.DirAttn.halfInside Cert.DirAttn.colWeight
  refine Finset.sum_congr rfl fun s _ => ?_
  refine congrArg (x (ix3 β s d) * ·) ?_
  refine congrArg (· + Cert.DirAttn.eps) ?_
  exact Finset.sum_congr rfl fun s' _ => by rw [refWeight_apply, hm]

/-- For arrays of real entries the reference's result is the specification's. -/
theorem refOut_eq_result (x : FVec Ideal S64x512x512 .f32) (W U : FVec Ideal S512x512 .f32) (b : FVec Ideal S512 .f32)
    (hx : ∀ i, ∃ r : ℝ, x i = (r : EReal)) (hW : ∀ i, ∃ r : ℝ, W i = (r : EReal)) (hU : ∀ i, ∃ r : ℝ, U i = (r : EReal)) (hb : ∀ i, ∃ r : ℝ, b i = (r : EReal)) :
    refOut (F := Ideal) x W U b = Cert.DirAttn.result x W U b := by
  funext j
  unfold refOut Cert.DirAttn.result
  by_cases h : (j 1).val < 512
  · rw [dif_pos h]
    refine (concatenate_pair_apply_left (1 : Fin S64x1024.rank) _ _ concatenates_S64x512_S64x512_S64x1024_d1 j rfl
      (ix2 (j 0) (⟨(j 1).val, h⟩ : Fin 512)) (fun b => match b with | ⟨0, _⟩ => rfl | ⟨1, _⟩ => rfl)).trans ?_
    refine (refHalf_eq_halfInside x W U b _ Cert.DirAttn.above refAbove_apply _ _).trans ?_
    exact Cert.DirAttn.halfInside_eq_half hx hW hU hb Cert.DirAttn.isReal_above _ _
  · rw [dif_neg h]
    have hlt : (j 1).val - 512 < 512 := by have := idx2_lt1 j; omega
    refine (concatenate_pair_apply_right (1 : Fin S64x1024.rank) _ _ concatenates_S64x512_S64x512_S64x1024_d1 j rfl rfl
      (ix2 (j 0) (⟨(j 1).val - 512, hlt⟩ : Fin 512))
      (fun b => match b with | ⟨0, _⟩ => fun _ => rfl | ⟨1, _⟩ => fun hne => absurd rfl hne)
      (show (j 1).val - 512 + 512 = (j 1).val by omega)).trans ?_
    refine (refHalf_eq_halfInside x W U b _ Cert.DirAttn.below refBelow_apply _ _).trans ?_
    exact Cert.DirAttn.halfInside_eq_half hx hW hU hb Cert.DirAttn.isReal_below _ _

end Cert.ReferenceIdeal.RefValue

end
-- ==== Proof.FiniteInputs.lean ====
/-
  The precondition, read back. The printed predicate asks, for each of the four float arrays, that the
  absolute value of every entry is strictly below +∞, takes the conjunction over all entries of each
  array, and joins the four conjunctions. At the extended reals an absolute value `max a (-a)` is below
  +∞ exactly when `a` is neither -∞ nor +∞, that is, when `a` is a real number. So the predicate being
  true says: every entry of every array is a real.
-/
import proofs.«124538_j12283606468238_1_alg».proof.Pre_finite_inputs
import Idealize.ShloMosaic.Lib.ReduceAll
import Idealize.ShloMosaic.Lib.ValueIdx
import Idealize.ShloMosaic.PureOps.Ideal
import Mathlib.Tactic

namespace Cert.FiniteInputs

open Idealize.ShloMosaic Idealize.ShloMosaic.ValueIdx Cert.Pre_finite_inputs

/-- The rank-0 shape has exactly one index. -/
instance : Subsingleton S_.Idx := ⟨fun a b => funext fun d => d.elim0⟩

/-- The f32 word `0x7F800000` (sign 0, exponent all ones, significand 0) denotes +∞. -/
theorem ofBits_inf : Ideal.ofBits .f32 0x7F800000#32 = ⊤ := by simp [Ideal.ofBits, Ideal.ieee]

/-- An extended real whose absolute value `max a (-a)` is strictly below +∞ is a real:
    at `a = -∞` the absolute value is `max (-∞) (+∞) = +∞`, at `a = +∞` it is `+∞`, and neither is below +∞. -/
theorem real_of_abs_lt_top (a : EReal) (h : max a (-a) < ⊤) : ∃ r : ℝ, a = (r : EReal) := by
  induction a using EReal.rec with
  | bot => simp at h
  | coe r => exact ⟨r, rfl⟩
  | top => simp at h

/-- One entry: if the comparison `|a| < +∞` answers 1, then `a` is a real. -/
theorem real_of_cmp (a : Ideal .f32)
    (h : FloatOps.cmpf .olt (FloatOps.hostAbsf a) (FloatOps.ofBits (F := Ideal) .f32 0x7F800000#32) = 1#1) :
    ∃ r : ℝ, a = (r : EReal) := by
  change BitVec.ofBool (decide (max (a : EReal) (-(a : EReal)) < Ideal.ofBits .f32 0x7F800000#32)) = 1#1 at h
  rw [ofBits_inf] at h
  refine real_of_abs_lt_top a ?_
  by_contra hn
  simp [hn] at h

/-- One array, of any shape: if the conjunction over all entries of `|v i| < +∞` is 1, every entry is a real.
    The conjunction over all axes has a single result index, so its being 1 gives the comparison at each `i`. -/
theorem reals_of_all {s : Shape} {axes : List (Fin s.rank)} (v : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf v) (broadcastInDim s ![] hb (constant S_ .f32 0x7F800000#32))) init hr hu ix0 = 1#1) :
    ∀ i, ∃ r : ℝ, v i = (r : EReal) := fun i =>
  real_of_cmp (v i) (Host.reduce_andi_all _ init hr hu ix0 e i)

/-- The array of shape 64×512×512. -/
theorem reals_of_all_x [Facts] (x : FVec Ideal S64x512x512 .f32) (init : IVec S_ 1)
    (e : Host.reduce IntOp.andi
          (cmpf .olt (Host.absf x)
            (broadcastInDim S64x512x512 ![] Facts.bcast_S_S64x512x512 (constant S_ .f32 0x7F800000#32)))
          init Facts.reducesTo_S64x512x512_S_d0_1_2 Facts.h_S_ ix0 = 1#1) :
    ∀ i, ∃ r : ℝ, x i = (r : EReal) :=
  reals_of_all x _ _ _ init e

/-- An array of shape 512×512. -/
theorem reals_of_all_mat [Facts] (W : FVec Ideal S512x512 .f32) (init : IVec S_ 1)
    (e : Host.reduce IntOp.andi
          (cmpf .olt (Host.absf W)
            (broadcastInDim S512x512 ![] Facts.bcast_S_S512x512 (constant S_ .f32 0x7F800000#32)))
          init Facts.reducesTo_S512x512_S_d0_1 Facts.h_S_ ix0 = 1#1) :
    ∀ i, ∃ r : ℝ, W i = (r : EReal) :=
  reals_of_all W _ _ _ init e

/-- The array of shape 512. -/
theorem reals_of_all_vec [Facts] (b : FVec Ideal S512 .f32) (init : IVec S_ 1)
    (e : Host.reduce IntOp.andi
          (cmpf .olt (Host.absf b)
            (broadcastInDim S512 ![] Facts.bcast_S_S512 (constant S_ .f32 0x7F800000#32)))
          init Facts.reducesTo_S512_S_d0 Facts.h_S_ ix0 = 1#1) :
    ∀ i, ∃ r : ℝ, b i = (r : EReal) :=
  reals_of_all b _ _ _ init e

/-- The precondition true means: every entry of `x`, `W`, `U` and `b` is a real.
    The predicate's value at its one index is `((p_x ∧ p_W) ∧ p_U) ∧ p_b`, each `p` the conjunction over one array;
    a conjunction of bits is 1 only when both are, and each `p` is read back by the lemmas above. -/
theorem reals_of_pre [Cert.Pre_finite_inputs.Facts]
    (x : FVec Ideal Cert.Pre_finite_inputs.S64x512x512 .f32) (W U : FVec Ideal Cert.Pre_finite_inputs.S512x512 .f32) (b : FVec Ideal Cert.Pre_finite_inputs.S512 .f32)
    (h : Cert.Pre_finite_inputs.fn (F := Ideal) x W U b = fun _ => 1#1) :
    (∀ i, ∃ r : ℝ, x i = (r : EReal)) ∧ (∀ i, ∃ r : ℝ, W i = (r : EReal)) ∧ (∀ i, ∃ r : ℝ, U i = (r : EReal)) ∧ (∀ i, ∃ r : ℝ, b i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨reals_of_all_x x _ h1, reals_of_all_mat W _ h2, reals_of_all_mat U _ h3, reals_of_all_vec b _ h4⟩

end Cert.FiniteInputs
-- ==== Proof.lean ====
/-
  A directional attention layer: the kernel against its reference, on the extended reals.

  For x : [64, 512, 512], W, U : [512, 512], b : [512] both programs form hidden = tanh (x·W + b) and
  weight = exp (hidden·U), mask the weights by "position above the diagonal" and by "position below the diagonal",
  sum each masked array over the sequence axis and add a small constant (the same 32-bit word in both programs), and
  return, side by side, for each mask: x weighted by that column weight and summed over the sequence axis.

  The kernel works on 8 batch members per grid point, flattens them for the two matrix products, and multiplies the
  column sum of x by the column weight; the reference multiplies every entry of x by the column weight and sums
  afterwards. Changes of float format are the identity on extended reals, a matrix product into a zero accumulator is
  the plain sum of products, and a reshape keeps row-major order, so the only real difference is the place of the
  common factor: ∑ₛ x[β,s,d] · c = (∑ₛ x[β,s,d]) · c. On the extended reals this needs c and the x[β,s,d] to be reals;
  the precondition (every input entry finite) gives that, since sums, products, tanh and exp of reals are reals.

  The three frame claims are the generated frame runs (the reference's run is written out in Proof/RefRun.lean);
  the idealization rewrote no operation, so nothing is owed for it.
-/
import proofs.«124538_j12283606468238_1_alg».proof.Defs
import proofs.«124538_j12283606468238_1_alg».proof.Proof.Gen.Kernel
import proofs.«124538_j12283606468238_1_alg».proof.Proof.Gen.Kernel.Skeleton
import proofs.«124538_j12283606468238_1_alg».proof.Proof.Gen.Kernel.Launch
import proofs.«124538_j12283606468238_1_alg».proof.Proof.Gen.Kernel.Points
import proofs.«124538_j12283606468238_1_alg».proof.Proof.Gen.Kernel.Frame
import proofs.«124538_j12283606468238_1_alg».proof.Proof.Gen.KernelIdeal
import proofs.«124538_j12283606468238_1_alg».proof.Proof.Gen.KernelIdeal.Skeleton
import proofs.«124538_j12283606468238_1_alg».proof.Proof.Gen.KernelIdeal.Launch
import proofs.«124538_j12283606468238_1_alg».proof.Proof.Gen.KernelIdeal.Points
import proofs.«124538_j12283606468238_1_alg».proof.Proof.Gen.KernelIdeal.Frame
import proofs.«124538_j12283606468238_1_alg».proof.Proof.Gen.ReferenceIdeal
import proofs.«124538_j12283606468238_1_alg».proof.Proof.Gen.Pre_finite_inputs
import proofs.«124538_j12283606468238_1_alg».proof.Proof.Gen.KernelIdeal.Value
import proofs.«124538_j12283606468238_1_alg».proof.Proof.KernelArray
import proofs.«124538_j12283606468238_1_alg».proof.Proof.RefRun
import proofs.«124538_j12283606468238_1_alg».proof.Proof.RefValue
import proofs.«124538_j12283606468238_1_alg».proof.Proof.FiniteInputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories that agree on the four arguments, all entries finite: the kernel's result array ends at the
    specification of the arguments, the reference's at its own composed term of the same arguments, and that term is
    the specification once every entry is a real. -/
theorem algebraic : Cert.algebraic_KernelIdeal_ReferenceIdeal := by
  intro m ρ m' ρ' hpre hagree
  refine ⟨_, Cert.KernelIdeal.WholeArray.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  obtain ⟨hx, hW, hU, hb⟩ := Cert.FiniteInputs.reals_of_pre _ _ _ _ (hpre c)
  exact Cert.ReferenceIdeal.RefValue.refOut_eq_result _ _ _ _ hx hW hU hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
